-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S20000 : Shape := ⟨1, ![20000]⟩
abbrev S100000x64 : Shape := ⟨2, ![100000, 64]⟩
abbrev S20000x64 : Shape := ⟨2, ![20000, 64]⟩
abbrev S912x64 : Shape := ⟨2, ![912, 64]⟩
abbrev S1537x64 : Shape := ⟨2, ![1537, 64]⟩
abbrev S9x64 : Shape := ⟨2, ![9, 64]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S912x64 : S_.BroadcastsInDim S912x64 (![] : Fin 0 → Fin S912x64.rank)
  reducesTo_S912x64_S_d0_1 : S912x64.ReducesTo [0, 1] S_
  bcast_S_S1537x64 : S_.BroadcastsInDim S1537x64 (![] : Fin 0 → Fin S1537x64.rank)
  reducesTo_S1537x64_S_d0_1 : S1537x64.ReducesTo [0, 1] S_
  bcast_S_S9x64 : S_.BroadcastsInDim S9x64 (![] : Fin 0 → Fin S9x64.rank)
  reducesTo_S9x64_S_d0_1 : S9x64.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg8 : FVec F S9x64 .f32) (main_arg9 : FVec F S3 .f32) (main_v13 : IVec S_ 1) (main_v16 : IVec S1537x64 1) : IVec S_ 1 :=
  let main_c_5 : IVec S_ 1 := constantI S_ 1 1#1
  let main_v17 : IVec S_ 1 := (fun x v => Host.reduce IntOp.andi x v reducesTo_S1537x64_S_d0_1 h_S_) main_v16 main_c_5
  let main_v18 : IVec S_ 1 := andi main_v13 main_v17
  let main_v19 : FVec F S9x64 .f32 := Host.absf main_arg8
  let main_cst_6 : FVec F S_ .f32 := constant S_ .f32 0x7F800000#32
  let main_v20 : FVec F S9x64 .f32 := broadcastInDim S9x64 ![] bcast_S_S9x64 main_cst_6
  let main_v21 : IVec S9x64 1 := cmpf .olt main_v19 main_v20
  let main_c_7 : IVec S_ 1 := constantI S_ 1 1#1
  let main_v22 : IVec S_ 1 := (fun x v => Host.reduce IntOp.andi x v reducesTo_S9x64_S_d0_1 h_S_) main_v21 main_c_7
  let main_v23 : IVec S_ 1 := andi main_v18 main_v22
  let main_v24 : FVec F S3 .f32 := Host.absf main_arg9
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : IVec S2x2000000 32) (main_arg1 : IVec S20000 32) (main_arg2 : IVec S20000 32) (main_arg3 : IVec S20000 32) (main_arg4 : FVec F S100000x64 .f32) (main_arg5 : FVec F S20000x64 .f32) (main_arg6 : FVec F S912x64 .f32) (main_arg7 : FVec F S1537x64 .f32) (main_arg8 : FVec F S9x64 .f32) (main_arg9 : FVec F S3 .f32) : IVec S_ 1 :=
  let main_v0 : FVec F S100000x64 .f32 := Host.absf main_arg4
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S20000x64 .f32 := Host.absf main_arg5
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S912x64 .f32 := Host.absf main_arg6
  let main_cst_2 : FVec F S_ .f32 := constant S_ .f32 0x7F800000#32
  let main_v10 : FVec F S912x64 .f32 := broadcastInDim S912x64 ![] bcast_S_S912x64 main_cst_2
  let main_v11 : IVec S912x64 1 := cmpf .olt main_v9 main_v10
  let main_c_3 : IVec S_ 1 := constantI S_ 1 1#1
  let main_v12 : IVec S_ 1 := (fun x v => Host.reduce IntOp.andi x v reducesTo_S912x64_S_d0_1 h_S_) main_v11 main_c_3
  let main_v13 : IVec S_ 1 := andi main_v8 main_v12
  let main_v14 : FVec F S1537x64 .f32 := Host.absf main_arg7
  let main_cst_4 : FVec F S_ .f32 := constant S_ .f32 0x7F800000#32
  let main_v15 : FVec F S1537x64 .f32 := broadcastInDim S1537x64 ![] bcast_S_S1537x64 main_cst_4
  let main_v16 : IVec S1537x64 1 := cmpf .olt main_v14 main_v15
  fn_part1 (F := F) main_arg8 main_arg9 main_v13 main_v16
-- ==== Kernel.lean ====
abbrev S2x2000000 : Shape := ⟨2, ![2, 2000000]⟩
abbrev S20000 : Shape := ⟨1, ![20000]⟩
abbrev S100000x64 : Shape := ⟨2, ![100000, 64]⟩
abbrev S20000x64 : Shape := ⟨2, ![20000, 64]⟩
abbrev S912x64 : Shape := ⟨2, ![912, 64]⟩
abbrev S1537x64 : Shape := ⟨2, ![1537, 64]⟩
abbrev S9x64 : Shape := ⟨2, ![9, 64]⟩
abbrev S3 : Shape := ⟨1, ![3]⟩
abbrev S_ : Shape := ⟨0, ![]⟩
abbrev S20000x1 : Shape := ⟨2, ![20000, 1]⟩
abbrev S120000x64 : Shape := ⟨2, ![120000, 64]⟩
abbrev S1x2000000 : Shape := ⟨2, ![1, 2000000]⟩
abbrev S2000000 : Shape := ⟨1, ![2000000]⟩
abbrev S120000 : Shape := ⟨1, ![120000]⟩
abbrev S2000000x1 : Shape := ⟨2, ![2000000, 1]⟩
abbrev S1 : Shape := ⟨1, ![1]⟩
abbrev S2000000x64 : Shape := ⟨2, ![2000000, 64]⟩
abbrev S2015232x64 : Shape := ⟨2, ![2015232, 64]⟩
abbrev S15744x128x64 : Shape := ⟨3, ![15744, 128, 64]⟩
abbrev S15744x128 : Shape := ⟨2, ![15744, 128]⟩
abbrev S128x128x64 : Shape := ⟨3, ![128, 128, 64]⟩
abbrev S128x128 : Shape := ⟨2, ![128, 128]⟩
abbrev S2015232 : Shape := ⟨1, ![2015232]⟩

abbrev nBuf : Space → Nat
  | .hbm => 163
  | .vmem => 6
  | .smem => 0
  | _ => 0

abbrev hbmTy0_0 (i : Nat) : BufTy := match i % 128 with
  | 0 => ⟨S2x2000000, .i32⟩
  | 1 => ⟨S20000, .i32⟩
  | 2 => ⟨S20000, .i32⟩
  | 3 => ⟨S20000, .i32⟩
  | 4 => ⟨S100000x64, .f32⟩
  | 5 => ⟨S20000x64, .f32⟩
  | 6 => ⟨S912x64, .f32⟩
  | 7 => ⟨S1537x64, .f32⟩
  | 8 => ⟨S9x64, .f32⟩
  | 9 => ⟨S3, .f32⟩
  | 10 => ⟨S_, .i32⟩
  | 11 => ⟨S20000, .i32⟩
  | 12 => ⟨S20000, .i1⟩
  | 13 => ⟨S_, .i32⟩
  | 14 => ⟨S20000, .i32⟩
  | 15 => ⟨S20000, .i32⟩
  | 16 => ⟨S20000, .i32⟩
  | 17 => ⟨S20000x1, .i32⟩
  | 18 => ⟨S20000x64, .f32⟩
  | 19 => ⟨S20000x64, .f32⟩
  | 20 => ⟨S_, .i32⟩
  | 21 => ⟨S20000, .i32⟩
  | 22 => ⟨S20000, .i1⟩
  | 23 => ⟨S_, .i32⟩
  | 24 => ⟨S20000, .i32⟩
  | 25 => ⟨S20000, .i32⟩
  | 26 => ⟨S20000, .i32⟩
  | 27 => ⟨S20000x1, .i32⟩
  | 28 => ⟨S20000x64, .f32⟩
  | 29 => ⟨S20000x64, .f32⟩
  | 30 => ⟨S_, .i32⟩
  | 31 => ⟨S20000, .i32⟩
  | 32 => ⟨S20000, .i1⟩
  | 33 => ⟨S_, .i32⟩
  | 34 => ⟨S20000, .i32⟩
  | 35 => ⟨S20000, .i32⟩
  | 36 => ⟨S20000, .i32⟩
  | 37 => ⟨S20000x1, .i32⟩
  | 38 => ⟨S20000x64, .f32⟩
  | 39 => ⟨S20000x64, .f32⟩
  | 40 => ⟨S_, .f32⟩
  | 41 => ⟨S20000x64, .f32⟩
  | 42 => ⟨S20000x64, .f32⟩
  | 43 => ⟨S120000x64, .f32⟩
  | 44 => ⟨S1x2000000, .i32⟩
  | 45 => ⟨S2000000, .i32⟩
  | 46 => ⟨S1x2000000, .i32⟩
  | 47 => ⟨S2000000, .i32⟩
  | 48 => ⟨S_, .f32⟩
  | 49 => ⟨S2000000, .f32⟩
  | 50 => ⟨S_, .f32⟩
  | 51 => ⟨S120000, .f32⟩
  | 52 => ⟨S2000000x1, .i32⟩
  | 53 => ⟨S120000, .f32⟩
  | 54 => ⟨S_, .f32⟩
  | 55 => ⟨S120000, .f32⟩
  | 56 => ⟨S120000, .i1⟩
  | 57 => ⟨S_, .f32⟩
  | 58 => ⟨S120000, .f32⟩
  | 59 => ⟨S120000, .f32⟩
  | 60 => ⟨S120000, .f32⟩
  | 61 => ⟨S_, .f32⟩
  | 62 => ⟨S_, .f32⟩
  | 63 => ⟨S120000, .f32⟩
  | 64 => ⟨S120000, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000, .f32⟩
  | 83 => ⟨S2000000, .f32⟩
  | 84 => ⟨S1, .f32⟩
  | 85 => ⟨S_, .f32⟩
  | 86 => ⟨S120000x64, .f32⟩
  | 87 => ⟨S120000x64, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000x64, .f32⟩
  | 97 => ⟨S2000000x1, .f32⟩
  | 98 => ⟨S2000000x64, .f32⟩
  | 99 => ⟨S2000000x64, .f32⟩
  | 100 => ⟨S_, .f32⟩
  | 101 => ⟨S120000x64, .f32⟩
  | 102 => ⟨S2000000x1, .i32⟩
  | 103 => ⟨S120000x64, .f32⟩
  | 104 => ⟨S1, .f32⟩
  | 105 => ⟨S_, .f32⟩
  | 106 => ⟨S120000x64, .f32⟩
  | 107 => ⟨S120000x64, .f32⟩
  | 108 => ⟨S120000x64, .f32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S2000000x64, .f32⟩
  | 118 => ⟨S2000000x1, .f32⟩
  | 119 => ⟨S2000000x64, .f32⟩
  | 120 => ⟨S2000000x64, .f32⟩
  | 121 => ⟨S_, .f32⟩
  | 122 => ⟨S120000x64, .f32⟩
  | 123 => ⟨S2000000x1, .i32⟩
  | 124 => ⟨S120000x64, .f32⟩
  | 125 => ⟨S1, .f32⟩
  | 126 => ⟨S_, .f32⟩
  | 127 => ⟨S120000x64, .f32⟩
  | _ => ⟨S2x2000000, .i32⟩

abbrev hbmTy0_1 (i : Nat) : BufTy := match i % 128 with
  | 0 => ⟨S120000x64, .f32⟩
  | 1 => ⟨S120000x64, .f32⟩
  | 2 => ⟨S1x2000000, .i32⟩
  | 3 => ⟨S2000000, .i32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S2000000x1, .i32⟩
  | 12 => ⟨S2000000x64, .f32⟩
  | 13 => ⟨S1x2000000, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x64, .f32⟩
  | 24 => ⟨S_, .i32⟩
  | 25 => ⟨S_, .f32⟩
  | 26 => ⟨S2015232x64, .f32⟩
  | 27 => ⟨S_, .i32⟩
  | 28 => ⟨S_, .f32⟩
  | 29 => ⟨S2015232x64, .f32⟩
  | 30 => ⟨S15744x128x64, .f32⟩
  | 31 => ⟨S15744x128x64, .f32⟩
  | 32 => ⟨S15744x128, .f32⟩
  | 33 => ⟨S2015232, .f32⟩
  | 34 => ⟨S2000000, .f32⟩
  | _ => ⟨S2x2000000, .i32⟩

abbrev hbmTy (i : Nat) : BufTy := match i / 128 with
  | 0 => hbmTy0_0 i
  | 1 => hbmTy0_1 i
  | _ => ⟨S2x2000000, .i32⟩

abbrev bufTy : (tb : Table) → Fin (tcTables nBuf tb) → BufTy
  | .hbm, ⟨i, _⟩ => hbmTy i
  | .local _ .vmem, ⟨0, _⟩ => ⟨S128x128x64, .f32⟩
  | .local _ .vmem, ⟨1, _⟩ => ⟨S128x128x64, .f32⟩
  | .local _ .vmem, ⟨2, _⟩ => ⟨S128x128x64, .f32⟩
  | .local _ .vmem, ⟨3, _⟩ => ⟨S128x128x64, .f32⟩
  | .local _ .vmem, ⟨4, _⟩ => ⟨S128x128, .f32⟩
  | .local _ .vmem, ⟨5, _⟩ => ⟨S128x128, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_20 : Ref sig .tc := ⟨.hbm, 132, rfl⟩
abbrev main_v98 : Ref sig .tc := ⟨.hbm, 133, rfl⟩
abbrev main_v99 : Ref sig .tc := ⟨.hbm, 134, rfl⟩
abbrev main_c_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_22 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_24 : Ref sig .tc := ⟨.hbm, 152, rfl⟩
abbrev main_call1_v0 : Ref sig .tc := ⟨.hbm, 153, rfl⟩
abbrev main_v114 : Ref sig .tc := ⟨.hbm, 154, rfl⟩
abbrev main_c_25 : Ref sig .tc := ⟨.hbm, 155, rfl⟩
abbrev main_call2_v0 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![123], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S20000x64 : S_.BroadcastsInDim S20000x64 (![] : Fin 0 → Fin S20000x64.rank)
  concatenates_S100000x64_S20000x64_S120000x64_d0 : Shape.Concatenates [S100000x64, S20000x64] S120000x64 0
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S120000 : S_.BroadcastsInDim S120000 (![] : Fin 0 → Fin S120000.rank)
  bcast_S2000000_S2000000x1_0 : S2000000.BroadcastsInDim S2000000x1 (![0] : Fin 1 → Fin S2000000x1.rank)
  slices_S3_S1_0 : S3.Slices ![0] S1
  shapeCasts_S1_S_ : S1.ShapeCasts S_
  bcast_S_S120000x64 : S_.BroadcastsInDim S120000x64 (![] : Fin 0 → Fin S120000x64.rank)
  bcast_S2000000x1_S2000000x64_0_1 : S2000000x1.BroadcastsInDim S2000000x64 (![0, 1] : Fin 2 → Fin S2000000x64.rank)
  slices_S3_S1_1 : S3.Slices ![1] S1
  slices_S3_S1_2 : S3.Slices ![2] S1
  pads_S2000000x64_S2015232x64_0152320_000 : S2000000x64.Pads (![0, 0] : Fin 2 → Nat) ![15232, 0] ![0, 0] S2015232x64
  h_S_ : 0 < S_.numel
  shapeCasts_S2015232x64_S15744x128x64 : S2015232x64.ShapeCasts S15744x128x64
  inb_S128x128x64_S128x128x64_0_0_0 : ∀ a, (![0, 0, 0] : Fin 3 → Nat) a + S128x128x64.size a ≤ S128x128x64.size a
  h_S128x128x64 : 0 < S128x128x64.numel
  shapeCasts_S128x128x64_S128x128x64 : S128x128x64.ShapeCasts S128x128x64
  reduces_S128x128x64_S128x128 : S128x128x64.Reduces [2] S128x128
  inb_S128x128_S128x128_0_0 : ∀ a, (![0, 0] : Fin 2 → Nat) a + S128x128.size a ≤ S128x128.size a
  h_S128x128 : 0 < S128x128.numel
  shapeCasts_S15744x128_S2015232 : S15744x128.ShapeCasts S2015232
  slices_S2015232_S2000000_0 : S2015232.Slices ![0] S2000000
  gather_S912x64_S20000x1_S20000x64_1_0_n_n_0_1_164_wf : GatherDims.WF S912x64 S20000x1 S20000x64 [1] [0] [] [0] [] 1 ![1, 64]
  gather_S1537x64_S20000x1_S20000x64_1_0_n_n_0_1_164_wf : GatherDims.WF S1537x64 S20000x1 S20000x64 [1] [0] [] [0] [] 1 ![1, 64]
  gather_S9x64_S20000x1_S20000x64_1_0_n_n_0_1_164_wf : GatherDims.WF S9x64 S20000x1 S20000x64 [1] [0] [] [0] [] 1 ![1, 64]
  scatter_S120000_S2000000x1_S2000000_n_0_0_1_wf : ScatterDims.WF S120000 S2000000x1 S2000000 [] [0] [0] 1
  gather_S120000_S2000000x1_S2000000_n_0_n_n_0_1_1_wf : GatherDims.WF S120000 S2000000x1 S2000000 [] [0] [] [0] [] 1 ![1]
  gather_S120000x64_S2000000x1_S2000000x64_1_0_n_n_0_1_164_wf : GatherDims.WF S120000x64 S2000000x1 S2000000x64 [1] [0] [] [0] [] 1 ![1, 64]
  scatter_S120000x64_S2000000x1_S2000000x64_1_0_0_1_wf : ScatterDims.WF S120000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x64.size a ≤ S15744x128x64.size a
  hwx0_0 : ∀ i : grid0.Coords, EltTy.bits .f32 = 32 ∨ (Rect.block (s := S15744x128x64) S128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x64.size a ≤ S15744x128x64.size a
  hwx0_1 : ∀ i : grid0.Coords, EltTy.bits .f32 = 32 ∨ (Rect.block (s := S15744x128x64) S128x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S15744x128.size a
  hwx0_2 : ∀ i : grid0.Coords, EltTy.bits .f32 = 32 ∨ (Rect.block (s := S15744x128) S128x128.size (cc0_transform_2 i) (hinb0_2 i)).WholeWords (EltTy.packing .f32)

variable [Facts₀]

def gather_S912x64_S20000x1_S20000x64_1_0_n_n_0_1_164 : GatherDims S912x64 S20000x1 S20000x64 where
  offsetDims := [1]
  collapsedSliceDims := [0]
  operandBatchingDims := []
  startIndicesBatchingDims := []
  startIndexMap := [0]
  indexVectorDim := 1
  sliceSizes := ![1, 64]
  wf := gather_S912x64_S20000x1_S20000x64_1_0_n_n_0_1_164_wf
def gather_S1537x64_S20000x1_S20000x64_1_0_n_n_0_1_164 : GatherDims S1537x64 S20000x1 S20000x64 where
  offsetDims := [1]
  collapsedSliceDims := [0]
  operandBatchingDims := []
  startIndicesBatchingDims := []
  startIndexMap := [0]
  indexVectorDim := 1
  sliceSizes := ![1, 64]
  wf := gather_S1537x64_S20000x1_S20000x64_1_0_n_n_0_1_164_wf
def gather_S9x64_S20000x1_S20000x64_1_0_n_n_0_1_164 : GatherDims S9x64 S20000x1 S20000x64 where
  offsetDims := [1]
  collapsedSliceDims := [0]
  operandBatchingDims := []
  startIndicesBatchingDims := []
  startIndexMap := [0]
  indexVectorDim := 1
  sliceSizes := ![1, 64]
  wf := gather_S9x64_S20000x1_S20000x64_1_0_n_n_0_1_164_wf
def scatter_S120000_S2000000x1_S2000000_n_0_0_1 : ScatterDims S120000 S2000000x1 S2000000 where
  updateWindowDims := []
  insertedWindowDims := [0]
  scatterDimsToOperandDims := [0]
  indexVectorDim := 1
  wf := scatter_S120000_S2000000x1_S2000000_n_0_0_1_wf
def gather_S120000_S2000000x1_S2000000_n_0_n_n_0_1_1 : GatherDims S120000 S2000000x1 S2000000 where
  offsetDims := []
  collapsedSliceDims := [0]
  operandBatchingDims := []
  startIndicesBatchingDims := []
  startIndexMap := [0]
  indexVectorDim := 1
  sliceSizes := ![1]
  wf := gather_S120000_S2000000x1_S2000000_n_0_n_n_0_1_1_wf
def gather_S120000x64_S2000000x1_S2000000x64_1_0_n_n_0_1_164 : GatherDims S120000x64 S2000000x1 S2000000x64 where
  offsetDims := [1]
  collapsedSliceDims := [0]
  operandBatchingDims := []
  startIndicesBatchingDims := []
  startIndexMap := [0]
  indexVectorDim := 1
  sliceSizes := ![1, 64]
  wf := gather_S120000x64_S2000000x1_S2000000x64_1_0_n_n_0_1_164_wf
def scatter_S120000x64_S2000000x1_S2000000x64_1_0_0_1 : ScatterDims S120000x64 S2000000x1 S2000000x64 where
  updateWindowDims := [1]
  insertedWindowDims := [0]
  scatterDimsToOperandDims := [0]
  indexVectorDim := 1
  wf := scatter_S120000x64_S2000000x1_S2000000x64_1_0_0_1_wf

abbrev win0_0 : Pipeline.Window sig grid0 :=
  Pipeline.Window.ofSpec (Memref.whole main_v116) S128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v117) S128x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v118) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2000000 : Shape := ⟨2, ![2, 2000000]⟩
abbrev S20000 : Shape := ⟨1, ![20000]⟩
abbrev S100000x64 : Shape := ⟨2, ![100000, 64]⟩
abbrev S20000x64 : Shape := ⟨2, ![20000, 64]⟩
abbrev S912x64 : Shape := ⟨2, ![912, 64]⟩
abbrev S1537x64 : Shape := ⟨2, ![1537, 64]⟩
abbrev S9x64 : Shape := ⟨2, ![9, 64]⟩
abbrev S3 : Shape := ⟨1, ![3]⟩
abbrev S_ : Shape := ⟨0, ![]⟩
abbrev S20000x1 : Shape := ⟨2, ![20000, 1]⟩
abbrev S120000x64 : Shape := ⟨2, ![120000, 64]⟩
abbrev S1x2000000 : Shape := ⟨2, ![1, 2000000]⟩
abbrev S2000000 : Shape := ⟨1, ![2000000]⟩
abbrev S120000 : Shape := ⟨1, ![120000]⟩
abbrev S2000000x1 : Shape := ⟨2, ![2000000, 1]⟩
abbrev S1 : Shape := ⟨1, ![1]⟩
abbrev S2000000x64 : Shape := ⟨2, ![2000000, 64]⟩

abbrev nBuf : Space → Nat
  | .hbm => 155
  | .vmem => 0
  | .smem => 0
  | _ => 0

abbrev hbmTy0_0 (i : Nat) : BufTy := match i % 128 with
  | 0 => ⟨S2x2000000, .i32⟩
  | 1 => ⟨S20000, .i32⟩
  | 2 => ⟨S20000, .i32⟩
  | 3 => ⟨S20000, .i32⟩
  | 4 => ⟨S100000x64, .f32⟩
  | 5 => ⟨S20000x64, .f32⟩
  | 6 => ⟨S912x64, .f32⟩
  | 7 => ⟨S1537x64, .f32⟩
  | 8 => ⟨S9x64, .f32⟩
  | 9 => ⟨S3, .f32⟩
  | 10 => ⟨S_, .i32⟩
  | 11 => ⟨S20000, .i32⟩
  | 12 => ⟨S20000, .i1⟩
  | 13 => ⟨S_, .i32⟩
  | 14 => ⟨S20000, .i32⟩
  | 15 => ⟨S20000, .i32⟩
  | 16 => ⟨S20000, .i32⟩
  | 17 => ⟨S20000x1, .i32⟩
  | 18 => ⟨S20000x64, .f32⟩
  | 19 => ⟨S20000x64, .f32⟩
  | 20 => ⟨S_, .i32⟩
  | 21 => ⟨S20000, .i32⟩
  | 22 => ⟨S20000, .i1⟩
  | 23 => ⟨S_, .i32⟩
  | 24 => ⟨S20000, .i32⟩
  | 25 => ⟨S20000, .i32⟩
  | 26 => ⟨S20000, .i32⟩
  | 27 => ⟨S20000x1, .i32⟩
  | 28 => ⟨S20000x64, .f32⟩
  | 29 => ⟨S20000x64, .f32⟩
  | 30 => ⟨S_, .i32⟩
  | 31 => ⟨S20000, .i32⟩
  | 32 => ⟨S20000, .i1⟩
  | 33 => ⟨S_, .i32⟩
  | 34 => ⟨S20000, .i32⟩
  | 35 => ⟨S20000, .i32⟩
  | 36 => ⟨S20000, .i32⟩
  | 37 => ⟨S20000x1, .i32⟩
  | 38 => ⟨S20000x64, .f32⟩
  | 39 => ⟨S20000x64, .f32⟩
  | 40 => ⟨S_, .f32⟩
  | 41 => ⟨S20000x64, .f32⟩
  | 42 => ⟨S20000x64, .f32⟩
  | 43 => ⟨S120000x64, .f32⟩
  | 44 => ⟨S1x2000000, .i32⟩
  | 45 => ⟨S2000000, .i32⟩
  | 46 => ⟨S1x2000000, .i32⟩
  | 47 => ⟨S2000000, .i32⟩
  | 48 => ⟨S_, .f32⟩
  | 49 => ⟨S2000000, .f32⟩
  | 50 => ⟨S_, .f32⟩
  | 51 => ⟨S120000, .f32⟩
  | 52 => ⟨S2000000x1, .i32⟩
  | 53 => ⟨S120000, .f32⟩
  | 54 => ⟨S_, .f32⟩
  | 55 => ⟨S120000, .f32⟩
  | 56 => ⟨S120000, .i1⟩
  | 57 => ⟨S_, .f32⟩
  | 58 => ⟨S120000, .f32⟩
  | 59 => ⟨S120000, .f32⟩
  | 60 => ⟨S120000, .f32⟩
  | 61 => ⟨S_, .f32⟩
  | 62 => ⟨S_, .f32⟩
  | 63 => ⟨S120000, .f32⟩
  | 64 => ⟨S120000, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000, .f32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i32⟩
  | 80 => ⟨S2000000, .i32⟩
  | 81 => ⟨S2000000x1, .i32⟩
  | 82 => ⟨S2000000, .f32⟩
  | 83 => ⟨S2000000, .f32⟩
  | 84 => ⟨S1, .f32⟩
  | 85 => ⟨S_, .f32⟩
  | 86 => ⟨S120000x64, .f32⟩
  | 87 => ⟨S120000x64, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000x64, .f32⟩
  | 97 => ⟨S2000000x1, .f32⟩
  | 98 => ⟨S2000000x64, .f32⟩
  | 99 => ⟨S2000000x64, .f32⟩
  | 100 => ⟨S_, .f32⟩
  | 101 => ⟨S120000x64, .f32⟩
  | 102 => ⟨S2000000x1, .i32⟩
  | 103 => ⟨S120000x64, .f32⟩
  | 104 => ⟨S1, .f32⟩
  | 105 => ⟨S_, .f32⟩
  | 106 => ⟨S120000x64, .f32⟩
  | 107 => ⟨S120000x64, .f32⟩
  | 108 => ⟨S120000x64, .f32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S2000000x64, .f32⟩
  | 118 => ⟨S2000000x1, .f32⟩
  | 119 => ⟨S2000000x64, .f32⟩
  | 120 => ⟨S2000000x64, .f32⟩
  | 121 => ⟨S_, .f32⟩
  | 122 => ⟨S120000x64, .f32⟩
  | 123 => ⟨S2000000x1, .i32⟩
  | 124 => ⟨S120000x64, .f32⟩
  | 125 => ⟨S1, .f32⟩
  | 126 => ⟨S_, .f32⟩
  | 127 => ⟨S120000x64, .f32⟩
  | _ => ⟨S2x2000000, .i32⟩

abbrev hbmTy0_1 (i : Nat) : BufTy := match i % 128 with
  | 0 => ⟨S120000x64, .f32⟩
  | 1 => ⟨S120000x64, .f32⟩
  | 2 => ⟨S1x2000000, .i32⟩
  | 3 => ⟨S2000000, .i32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S2000000x1, .i32⟩
  | 12 => ⟨S2000000x64, .f32⟩
  | 13 => ⟨S1x2000000, .i32⟩
  | 14 => ⟨S2000000, .i32⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x64, .f32⟩
  | 24 => ⟨S2000000x64, .f32⟩
  | 25 => ⟨S_, .f32⟩
  | 26 => ⟨S2000000, .f32⟩
  | _ => ⟨S2x2000000, .i32⟩

abbrev hbmTy (i : Nat) : BufTy := match i / 128 with
  | 0 => hbmTy0_0 i
  | 1 => hbmTy0_1 i
  | _ => ⟨S2x2000000, .i32⟩

abbrev bufTy : (tb : Table) → Fin (tcTables nBuf tb) → BufTy
  | .hbm, ⟨i, _⟩ => hbmTy i
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_call0_v0 : Ref sig .tc := ⟨.hbm, 62, rfl⟩
abbrev main_call0_v1 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_20 : Ref sig .tc := ⟨.hbm, 132, rfl⟩
abbrev main_v98 : Ref sig .tc := ⟨.hbm, 133, rfl⟩
abbrev main_v99 : Ref sig .tc := ⟨.hbm, 134, rfl⟩
abbrev main_c_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_22 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_24 : Ref sig .tc := ⟨.hbm, 153, rfl⟩
abbrev main_v115 : Ref sig .tc := ⟨.hbm, 154, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S20000x64 : S_.BroadcastsInDim S20000x64 (![] : Fin 0 → Fin S20000x64.rank)
  concatenates_S100000x64_S20000x64_S120000x64_d0 : Shape.Concatenates [S100000x64, S20000x64] S120000x64 0
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S120000 : S_.BroadcastsInDim S120000 (![] : Fin 0 → Fin S120000.rank)
  bcast_S2000000_S2000000x1_0 : S2000000.BroadcastsInDim S2000000x1 (![0] : Fin 1 → Fin S2000000x1.rank)
  slices_S3_S1_0 : S3.Slices ![0] S1
  shapeCasts_S1_S_ : S1.ShapeCasts S_
  bcast_S_S120000x64 : S_.BroadcastsInDim S120000x64 (![] : Fin 0 → Fin S120000x64.rank)
  bcast_S2000000x1_S2000000x64_0_1 : S2000000x1.BroadcastsInDim S2000000x64 (![0, 1] : Fin 2 → Fin S2000000x64.rank)
  slices_S3_S1_1 : S3.Slices ![1] S1
  slices_S3_S1_2 : S3.Slices ![2] S1
  reducesTo_S2000000x64_S2000000_d1 : S2000000x64.ReducesTo [1] S2000000
  h_S_ : 0 < S_.numel
  gather_S912x64_S20000x1_S20000x64_1_0_n_n_0_1_164_wf : GatherDims.WF S912x64 S20000x1 S20000x64 [1] [0] [] [0] [] 1 ![1, 64]
  gather_S1537x64_S20000x1_S20000x64_1_0_n_n_0_1_164_wf : GatherDims.WF S1537x64 S20000x1 S20000x64 [1] [0] [] [0] [] 1 ![1, 64]
  gather_S9x64_S20000x1_S20000x64_1_0_n_n_0_1_164_wf : GatherDims.WF S9x64 S20000x1 S20000x64 [1] [0] [] [0] [] 1 ![1, 64]
  scatter_S120000_S2000000x1_S2000000_n_0_0_1_wf : ScatterDims.WF S120000 S2000000x1 S2000000 [] [0] [0] 1
  gather_S120000_S2000000x1_S2000000_n_0_n_n_0_1_1_wf : GatherDims.WF S120000 S2000000x1 S2000000 [] [0] [] [0] [] 1 ![1]
  gather_S120000x64_S2000000x1_S2000000x64_1_0_n_n_0_1_164_wf : GatherDims.WF S120000x64 S2000000x1 S2000000x64 [1] [0] [] [0] [] 1 ![1, 64]
  scatter_S120000x64_S2000000x1_S2000000x64_1_0_0_1_wf : ScatterDims.WF S120000x64 S2000000x1 S2000000x64 [1] [0] [0] 1

variable [Facts₀]

def gather_S912x64_S20000x1_S20000x64_1_0_n_n_0_1_164 : GatherDims S912x64 S20000x1 S20000x64 where
  offsetDims := [1]
  collapsedSliceDims := [0]
  operandBatchingDims := []
  startIndicesBatchingDims := []
  startIndexMap := [0]
  indexVectorDim := 1
  sliceSizes := ![1, 64]
  wf := gather_S912x64_S20000x1_S20000x64_1_0_n_n_0_1_164_wf
def gather_S1537x64_S20000x1_S20000x64_1_0_n_n_0_1_164 : GatherDims S1537x64 S20000x1 S20000x64 where
  offsetDims := [1]
  collapsedSliceDims := [0]
  operandBatchingDims := []
  startIndicesBatchingDims := []
  startIndexMap := [0]
  indexVectorDim := 1
  sliceSizes := ![1, 64]
  wf := gather_S1537x64_S20000x1_S20000x64_1_0_n_n_0_1_164_wf
def gather_S9x64_S20000x1_S20000x64_1_0_n_n_0_1_164 : GatherDims S9x64 S20000x1 S20000x64 where
  offsetDims := [1]
  collapsedSliceDims := [0]
  operandBatchingDims := []
  startIndicesBatchingDims := []
  startIndexMap := [0]
  indexVectorDim := 1
  sliceSizes := ![1, 64]
  wf := gather_S9x64_S20000x1_S20000x64_1_0_n_n_0_1_164_wf
def scatter_S120000_S2000000x1_S2000000_n_0_0_1 : ScatterDims S120000 S2000000x1 S2000000 where
  updateWindowDims := []
  insertedWindowDims := [0]
  scatterDimsToOperandDims := [0]
  indexVectorDim := 1
  wf := scatter_S120000_S2000000x1_S2000000_n_0_0_1_wf
def gather_S120000_S2000000x1_S2000000_n_0_n_n_0_1_1 : GatherDims S120000 S2000000x1 S2000000 where
  offsetDims := []
  collapsedSliceDims := [0]
  operandBatchingDims := []
  startIndicesBatchingDims := []
  startIndexMap := [0]
  indexVectorDim := 1
  sliceSizes := ![1]
  wf := gather_S120000_S2000000x1_S2000000_n_0_n_n_0_1_1_wf
def gather_S120000x64_S2000000x1_S2000000x64_1_0_n_n_0_1_164 : GatherDims S120000x64 S2000000x1 S2000000x64 where
  offsetDims := [1]
  collapsedSliceDims := [0]
  operandBatchingDims := []
  startIndicesBatchingDims := []
  startIndexMap := [0]
  indexVectorDim := 1
  sliceSizes := ![1, 64]
  wf := gather_S120000x64_S2000000x1_S2000000x64_1_0_n_n_0_1_164_wf
def scatter_S120000x64_S2000000x1_S2000000x64_1_0_0_1 : ScatterDims S120000x64 S2000000x1 S2000000x64 where
  updateWindowDims := [1]
  insertedWindowDims := [0]
  scatterDimsToOperandDims := [0]
  indexVectorDim := 1
  wf := scatter_S120000x64_S2000000x1_S2000000x64_1_0_0_1_wf

class Facts : Prop extends Facts₀ where

variable [Facts]
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.EdgeDot.lean ====
/-
  The score of an edge is the inner product of two rows of 64 numbers: row e of a source matrix A and row e of a
  destination matrix B, for 2,000,000 edges.  This module states that function (`edgeDot`) and shows that a detour
  through tiles computes the same numbers:

  * append 15,232 rows of a padding value to each matrix (2,015,232 = 123 · 128 · 128 rows),
  * lay the rows out as 15,744 groups of 128 rows of 64 entries,
  * in every group take, for each of its 128 rows, the sum over the 64 entries of the products (`tileDot`),
  * read the [15744, 128] result as one vector of 2,015,232 sums and keep its first 2,000,000 entries.

  Entry e of the result is group e / 128, row e % 128, that is padded row (e / 128) · 128 + e % 128 = e, and e is below
  2,000,000, so the padding is never read.  No law of the extended reals is used: both sides are the same sum of the
  same products.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«127431_j31885837206039_1_alg».proof.Proof.LibBatchBlocks

noncomputable section

open scoped BigOperators

namespace Cert.EdgeDot

open Idealize.ShloMosaic Idealize.ShloMosaic.ValueIdx

variable {α : Type}

/-- The matrices of edge rows, their padded copies, the tiled copies, and the results. -/
abbrev Rows : Shape := ⟨2, ![2000000, 64]⟩
abbrev PaddedRows : Shape := ⟨2, ![2015232, 64]⟩
abbrev Tiles : Shape := ⟨3, ![15744, 128, 64]⟩
abbrev TileSums : Shape := ⟨2, ![15744, 128]⟩
abbrev PaddedScores : Shape := ⟨1, ![2015232]⟩
abbrev Scores : Shape := ⟨1, ![2000000]⟩

/-- The score of edge e: the sum over the 64 columns d of A(e, d) · B(e, d). -/
def edgeDot (A B : Rows.Idx → EReal) : Scores.Idx → EReal :=
  fun e => ∑ d : Fin 64, A (ix2 (e 0) d) * B (ix2 (e 0) d)

/-- The same sum taken tile by tile: at group p and row q, the sum over d of X(p, q, d) · Y(p, q, d). -/
def tileDot (X Y : Tiles.Idx → EReal) : TileSums.Idx → EReal :=
  fun i => ∑ d : Fin 64, X (ix3 (i 0) (i 1) d) * Y (ix3 (i 0) (i 1) d)

/-- Row q of group p of the padded, tiled copy of a matrix is row p · 128 + q of the matrix, when that row exists. -/
theorem tiled_padded_apply (A : Rows.Idx → α) {u : Shape} (v : u.Idx → α)
    (hp : Rows.Pads (![0, 0] : Fin 2 → Nat) ![15232, 0] ![0, 0] PaddedRows) (hu : 0 < u.numel)
    (hc : PaddedRows.ShapeCasts Tiles) (p : Fin 15744) (q : Fin 128) (d : Fin 64) (e : Fin 2000000)
    (he : e.val = p.val * 128 + q.val) :
    shapeCast Tiles (pad PaddedRows ![0, 0] ![15232, 0] ![0, 0] A v hp hu) hc (ix3 p q d) = A (ix2 e d) := by
  have hlt : e.val < 2015232 := by have := e.isLt; omega
  rw [Cert.LibBatchBlocks.shapeCast_split01_apply _ hc (⟨e.val, hlt⟩ : Fin 2015232) p q d he]
  refine pad_apply_of_inside _ _ _ A v hp hu _ (ix2 e d) fun a => ?_
  match a with
  | ⟨0, _⟩ => show e.val = 0 + e.val * (0 + 1); omega
  | ⟨1, _⟩ => show d.val = 0 + d.val * (0 + 1); omega

/-- Entry e of the first 2,000,000 entries of a [15744, 128] array read as one vector is the array at
    (e / 128, e % 128). -/
theorem head_flat_apply (Z : TileSums.Idx → α) (hc : TileSums.ShapeCasts PaddedScores)
    (hs : PaddedScores.Slices ![0] Scores) (e : Fin 2000000) (p : Fin 15744) (q : Fin 128)
    (he : e.val = p.val * 128 + q.val) :
    extractStridedSlice Scores ![0] (shapeCast PaddedScores Z hc) hs (ix1 e) = Z (ix2 p q) := by
  have hlt : e.val < 2015232 := by have := e.isLt; omega
  rw [extractStridedSlice_apply ![0] _ hs (ix1 e) (ix1 (⟨e.val, hlt⟩ : Fin 2015232)) (fun a => by
    match a with
    | ⟨0, _⟩ => show e.val = 0 + e.val; omega)]
  exact shapeCast_apply Z hc _ _ (by
    rw [Shape.rowMajor_val_two, Shape.rowMajor_val_one]
    show p.val * 128 + q.val = e.val
    omega)

/-- THE DETOUR THROUGH TILES IS THE EDGE SCORE: padding, tiling, the tile sums, flattening and cutting back give, at
    every edge, the sum of the products of its two rows. -/
theorem tiled_eq_edgeDot (A B : Rows.Idx → EReal) {u : Shape} (v : u.Idx → EReal)
    (hp : Rows.Pads (![0, 0] : Fin 2 → Nat) ![15232, 0] ![0, 0] PaddedRows) (hu : 0 < u.numel)
    (hc : PaddedRows.ShapeCasts Tiles) (hc' : TileSums.ShapeCasts PaddedScores)
    (hs : PaddedScores.Slices ![0] Scores) :
    extractStridedSlice Scores ![0]
        (shapeCast PaddedScores
          (tileDot (shapeCast Tiles (pad PaddedRows ![0, 0] ![15232, 0] ![0, 0] A v hp hu) hc)
            (shapeCast Tiles (pad PaddedRows ![0, 0] ![15232, 0] ![0, 0] B v hp hu) hc)) hc') hs
      = edgeDot A B := by
  funext j
  obtain ⟨e, rfl⟩ : ∃ e : Fin 2000000, j = ix1 e := ⟨j 0, eq_ix1 j⟩
  have hlt := e.isLt
  have hp' : e.val / 128 < 15744 := by omega
  have hq' : e.val % 128 < 128 := Nat.mod_lt _ (by decide)
  have he : e.val = (⟨e.val / 128, hp'⟩ : Fin 15744).val * 128 + (⟨e.val % 128, hq'⟩ : Fin 128).val := by
    show e.val = e.val / 128 * 128 + e.val % 128
    omega
  rw [head_flat_apply _ hc' hs e ⟨e.val / 128, hp'⟩ ⟨e.val % 128, hq'⟩ he]
  unfold tileDot edgeDot
  refine Finset.sum_congr rfl fun d _ => ?_
  rw [tiled_padded_apply A v hp hu hc _ _ d e he, tiled_padded_apply B v hp hu hc _ _ d e he]

end Cert.EdgeDot

end
-- ==== Proof.KernelTiles.lean ====
/-
  What the kernel's one region leaves in its result array.

  The region's two operands are [15744, 128, 64] arrays X and Y, cut along the first axis into 123 blocks of 128 groups;
  its result is a [15744, 128] array cut the same way.  At grid point t the body multiplies the two blocks entry by entry
  and sums the 64 products of every row, so what point t writes back is block t of ONE function of the whole arrays:
  at (p, q) the sum over d of X(p, q, d) · Y(p, q, d)  (`Cert.EdgeDot.tileDot`).  Block t of an operand is groups
  128·t … 128·t + 127 of the array, as block t of the result is; the 123 result blocks cover the result array, so after the
  region the array IS that function of the two operand arrays as the region finds them.
-/
import proofs.«127431_j31885837206039_1_alg».proof.Proof.Gen.KernelIdeal.Frame
import proofs.«127431_j31885837206039_1_alg».proof.Proof.EdgeDot
import Idealize.ShloMosaic.Lib.Pipeline.Value

set_option maxRecDepth 16384

noncomputable section

open scoped BigOperators

namespace Cert.KernelIdeal.TileValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's stored value at row q of group p of a block: the sum over the 64 entries of the two loaded blocks'
    products there. -/
theorem payload_apply (x0 x1 : FVec Ideal S128x128x64 .f32) (p q : Fin 128) :
    k0_pay1 (F := Ideal) x0 x1 (ix2 p q) = ∑ d : Fin 64, x0 (ix3 p q d) * x1 (ix3 p q d) := by
  unfold k0_pay1
  dsimp only
  refine (Cert.LibBatchBlocks.sum_axis2_apply _ reduces_S128x128x64_S128x128 _ _ p q).trans ?_
  refine Finset.sum_congr rfl fun d _ => ?_
  rw [shapeCast_self, shapeCast_self]
  rfl

/-- The same read through any placement of the blocks in their arrays: if entry (p, q, d) of each operand block is the
    operand array's entry at the result block's place for (p, q), extended by d, then the stored value at a block index
    is `tileDot` of the operand arrays at that index's place. -/
theorem point_apply (A B : S15744x128x64.Idx → EReal) (e0 e1 : S128x128x64.Idx → S15744x128x64.Idx)
    (e2 : S128x128.Idx → S15744x128.Idx)
    (h0 : ∀ (p q : Fin 128) (d : Fin 64), e0 (ix3 p q d) = ix3 (e2 (ix2 p q) 0) (e2 (ix2 p q) 1) d)
    (h1 : ∀ (p q : Fin 128) (d : Fin 64), e1 (ix3 p q d) = ix3 (e2 (ix2 p q) 0) (e2 (ix2 p q) 1) d)
    (j : S128x128.Idx) :
    k0_pay1 (F := Ideal) (fun y => A (e0 y)) (fun y => B (e1 y)) j = Cert.EdgeDot.tileDot A B (e2 j) := by
  obtain ⟨p, q, rfl⟩ : ∃ (p q : Fin 128), j = ix2 p q := ⟨j 0, j 1, eq_ix2 j⟩
  refine (payload_apply _ _ p q).trans ?_
  unfold Cert.EdgeDot.tileDot
  refine Finset.sum_congr rfl fun d _ => ?_
  show A (e0 (ix3 p q d)) * B (e1 (ix3 p q d)) = _
  rw [h0, h1]
  rfl

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 123 grid points: both operands' blocks and the result's block sit at block
    index t on the first axis and 0 on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- WHAT POINT t WRITES BACK is block t of `tileDot` of the two operand arrays as the region finds them. -/
theorem flushed_eq (c : Dev nD) (t : Fin cfg0.N) :
    (dats m 0 c).flushed 2 t
      = ((cfg0.win 2).blk t).view.read (Elt Ideal) (Cert.EdgeDot.tileDot (V m c main_v116) (V m c main_v117)) := by
  show (cfg0.win 2).cut (grid0.coords t) ((dats m 0 c).after 2 t) = _
  rw [after0_2]
  unfold out0_2
  rw [View.canon_unit_zero zeros2]
  simp only [View.ld_unit_zero (S := S128x128x64) zeros3]
  obtain ⟨a0, a1, a2, b0, b1, b2, r0, r1⟩ := idx_facts t
  funext j
  show k0_pay1 (F := Ideal) (fun y => V m c main_v116 (((cfg0.win 0).blk t).view.emb y))
      (fun y => V m c main_v117 (((cfg0.win 1).blk t).view.emb y)) j
    = Cert.EdgeDot.tileDot (V m c main_v116) (V m c main_v117) (((cfg0.win 2).blk t).view.emb j)
  refine point_apply (V m c main_v116) (V m c main_v117) (((cfg0.win 0).blk t).view.emb) (((cfg0.win 1).blk t).view.emb)
    (((cfg0.win 2).blk t).view.emb) (fun p q d => ?_) (fun p q d => ?_) j
  · funext a; apply Fin.ext
    match a with
    | ⟨0, _⟩ =>
      show win0_0.index t (0 : Fin 3) * 128 + 1 * p.val = win0_2.index t (0 : Fin 2) * 128 + 1 * p.val
      omega
    | ⟨1, _⟩ =>
      show win0_0.index t (1 : Fin 3) * 128 + 1 * q.val = win0_2.index t (1 : Fin 2) * 128 + 1 * q.val
      omega
    | ⟨2, _⟩ =>
      show win0_0.index t (2 : Fin 3) * 64 + 1 * d.val = d.val
      omega
  · funext a; apply Fin.ext
    match a with
    | ⟨0, _⟩ =>
      show win0_1.index t (0 : Fin 3) * 128 + 1 * p.val = win0_2.index t (0 : Fin 2) * 128 + 1 * p.val
      omega
    | ⟨1, _⟩ =>
      show win0_1.index t (1 : Fin 3) * 128 + 1 * q.val = win0_2.index t (1 : Fin 2) * 128 + 1 * q.val
      omega
    | ⟨2, _⟩ =>
      show win0_1.index t (2 : Fin 3) * 64 + 1 * d.val = d.val
      omega

/-- An index of the result array is in point t's block iff each coordinate is in the block's range on its axis. -/
theorem mem_blk (t : Fin cfg0.N) (i : S15744x128.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v118).slice (win0_2.rect t)).set ↔ _
  rw [View.set_slice_whole, Rect.mem_set_unit]
  exact Iff.rfl

/-- Every index of the result array is in the block of the point its group falls to: group g belongs to point g / 128. -/
theorem cover (i : S15744x128.Idx) :
    ∃ t : Fin cfg0.N, (cfg0.win 2).flush t = true ∧ i ∈ ((cfg0.win 2).blk t).view.set := by
  have hi0 : (i 0).val < 15744 := (i 0).isLt
  have hi1 : (i 1).val < 128 := (i 1).isLt
  obtain ⟨t, ht⟩ : ∃ t : Fin cfg0.N, t.val = (i 0).val / 128 :=
    ⟨⟨(i 0).val / 128, by show (i 0).val / 128 < grid0.N; rw [N_0]; omega⟩, rfl⟩
  obtain ⟨a0, a1, a2, b0, b1, b2, r0, r1⟩ := idx_facts t
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 128 ≤ (i 1).val ∧ (i 1).val < win0_2.index t (1 : Fin 2) * 128 + 128
    omega

/-- THE RESULT ARRAY after the region: `tileDot` of the two operand arrays as the region finds them. -/
theorem final (c : Dev nD) :
    (dats m 0 c).arrAt 2 cfg0.N = Cert.EdgeDot.tileDot (V m c main_v116) (V m c main_v117) :=
  (dats m 0 c).arrAt_eq_of_cover 2 _ (fun t _ => flushed_eq m c t) cover

end Cert.KernelIdeal.TileValue

end
-- ==== Proof.EdgeRows.lean ====
/-
  The two matrices of edge rows, as functions of the kernel's arguments.

  Before its one region the kernel's host program computes, from its ten arguments, the table of node embeddings after two
  rounds of normalized neighbourhood averaging, and gathers from it one row per edge at the edge's source node and one at
  its destination node.  The operations that produce these two [2000000, 64] matrices are, line for line, the reference
  program's own first 143 operations; so the matrices are named here by the reference's stages for them (`val_main_v104`
  and `val_main_v113` of the reference's read module) applied to the kernel's arguments.  They are never opened: every
  later statement speaks of them only as two functions `srcRows`, `dstRows` of the arguments.
-/
import proofs.«127431_j31885837206039_1_alg».proof.KernelIdeal
import proofs.«127431_j31885837206039_1_alg».proof.Proof.RefRead

noncomputable section

namespace Cert.KernelIdeal.Entry

open Cert.KernelIdeal Idealize.ShloMosaic Idealize.ShloMosaic.TcCoe Idealize.SL.Sem

variable (m : (ℓ : Loc nD τ sig) → Buf (Elt Ideal) ℓ)

/-- One row of 64 per edge: the propagated embedding of the edge's source node, as a function of the arguments. -/
def srcRows (c : Dev nD) : S2000000x64.Idx → EReal :=
  Cert.ReferenceIdeal.ReadP.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- One row of 64 per edge: the propagated embedding of the edge's destination node. -/
def dstRows (c : Dev nD) : S2000000x64.Idx → EReal :=
  Cert.ReferenceIdeal.ReadP.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The padding value: the integer zero converted to a float, as the host program prints it. -/
abbrev padValue : S_.Idx → EReal := sitofp (F := Ideal) .f32 (constantI S_ 32 0#32)

end Cert.KernelIdeal.Entry

end
-- ==== Proof.KernelCasts.lean ====
/-
  An outlined host function (`jnp.where`, `jnp.pad`) is printed over typed references to its buffers, and a value
  passing through one is moved between the value's own type and the type its buffer is declared with.  For the buffers
  of this program the two types are the same type, so each move is the identity.  The three statements below say so for
  the three calls the kernel's host program makes: the `where` of the degree normalization, and the two paddings of the
  edge rows with the reshape that follows each.  They are stated over variables, so that what moves through the references
  is never opened.
-/
import proofs.«127431_j31885837206039_1_alg».proof.Proof.Gen.KernelIdeal.Frame
import proofs.«127431_j31885837206039_1_alg».proof.Proof.EdgeRows

noncomputable section

namespace Cert.KernelIdeal.Entry

open Cert.KernelIdeal Cert.KernelIdeal.Gen Idealize.ShloMosaic Idealize.ShloMosaic.TcCoe Idealize.SL.Sem
open Idealize.ShloMosaic.StableHlo

/-- A matrix of edge rows, padded with the padding value to 2,015,232 rows and laid out as [15744, 128, 64]. -/
abbrev tiledRows (Q : S2000000x64.Idx → EReal) : S15744x128x64.Idx → EReal :=
  shapeCast S15744x128x64
    (pad S2015232x64 ![0, 0] ![15232, 0] ![0, 0] Q padValue pads_S2000000x64_S2015232x64_0152320_000 h_S_)
    shapeCasts_S2015232x64_S15744x128x64

/-- The `where` of the degree normalization, through its typed references, is the plain `select` of its two operands
    and the broadcast zero — in the spelling of the reference's stage. -/
theorem where_eq (A : S120000.Idx → BitVec 1) (B : S120000.Idx → EReal)
    (a1 a2 a3 b1 b2 b3 c1 c2 c3 d1 d2 d3 e1 e2 e3 f1 f2 f3) :
    (TRef.of (sig := sig) (T := ⟨S120000, .f32⟩) main_v40 a1 a2 a3).toBuf (Val := Elt Ideal)
      (select ((TRef.of (sig := sig) (T := ⟨S120000, .i1⟩) main_v36 b1 b2 b3).ofBuf (Val := Elt Ideal) A)
        ((TRef.of (sig := sig) (T := ⟨S120000, .f32⟩) main_v39 c1 c2 c3).ofBuf (Val := Elt Ideal) B)
        ((TRef.of (sig := sig) (T := ⟨S120000, .f32⟩) main_call0_v1 d1 d2 d3).ofBuf (Val := Elt Ideal)
          ((TRef.of (sig := sig) (T := ⟨S120000, .f32⟩) main_call0_v1 d1 d2 d3).toBuf (Val := Elt Ideal)
            (broadcastInDim S120000 ![] bcast_S_S120000
              ((TRef.of (sig := sig) (T := ⟨S_, .f32⟩) main_call0_v0 e1 e2 e3).ofBuf (Val := Elt Ideal)
                ((TRef.of (sig := sig) (T := ⟨S_, .f32⟩) main_call0_v0 e1 e2 e3).toBuf (Val := Elt Ideal)
                  (id
                    ((TRef.of (sig := sig) (T := ⟨S_, .f32⟩) main_cst_9 f1 f2 f3).ofBuf (Val := Elt Ideal)
                      (constant (F := Ideal) S_ FTy.f32 0#32)))))))))
    = select A B (broadcastInDim Cert.ReferenceIdeal.S120000 ![] Cert.ReferenceIdeal.Gen.bcast_S_S120000
        (id (constant (F := Ideal) Cert.ReferenceIdeal.S_ FTy.f32 0#32))) := rfl

/-- The first padding and the reshape after it, through the typed references of the outlined padding function. -/
theorem tiled0_eq (Q : S2000000x64.Idx → EReal) (a1 a2 a3 b1 b2 b3 d1 d2 d3 e1 e2 e3) :
    (fun i =>
      shapeCast main_v116.ty.shape
        ((TRef.of (sig := sig) (T := ⟨S2015232x64, .f32⟩) main_v114 a1 a2 a3).toBuf (Val := Elt Ideal)
          (pad S2015232x64 ![0, 0] ![15232, 0] ![0, 0]
            ((TRef.of (sig := sig) (T := ⟨S2000000x64, .f32⟩) main_v104 b1 b2 b3).ofBuf (Val := Elt Ideal) Q)
            ((TRef.of (sig := sig) (T := ⟨S_, .f32⟩) main_call1_v0 d1 d2 d3).ofBuf (Val := Elt Ideal)
              ((TRef.of (sig := sig) (T := ⟨S_, .f32⟩) main_call1_v0 d1 d2 d3).toBuf (Val := Elt Ideal)
                (sitofp (F := Ideal) FTy.f32
                  ((TRef.of (sig := sig) (T := ⟨S_, .i32⟩) main_c_24 e1 e2 e3).ofBuf (Val := Elt Ideal)
                    (constantI S_ 32 0#32)))))
            pads_S2000000x64_S2015232x64_0152320_000 h_S_))
        shapeCasts_S2015232x64_S15744x128x64 i)
    = tiledRows Q := rfl

/-- The second padding and the reshape after it. -/
theorem tiled1_eq (Q : S2000000x64.Idx → EReal) (a1 a2 a3 b1 b2 b3 d1 d2 d3 e1 e2 e3) :
    (fun i =>
      shapeCast main_v117.ty.shape
        ((TRef.of (sig := sig) (T := ⟨S2015232x64, .f32⟩) main_v115 a1 a2 a3).toBuf (Val := Elt Ideal)
          (pad S2015232x64 ![0, 0] ![15232, 0] ![0, 0]
            ((TRef.of (sig := sig) (T := ⟨S2000000x64, .f32⟩) main_v113 b1 b2 b3).ofBuf (Val := Elt Ideal) Q)
            ((TRef.of (sig := sig) (T := ⟨S_, .f32⟩) main_call2_v0 d1 d2 d3).ofBuf (Val := Elt Ideal)
              ((TRef.of (sig := sig) (T := ⟨S_, .f32⟩) main_call2_v0 d1 d2 d3).toBuf (Val := Elt Ideal)
                (sitofp (F := Ideal) FTy.f32
                  ((TRef.of (sig := sig) (T := ⟨S_, .i32⟩) main_c_25 e1 e2 e3).ofBuf (Val := Elt Ideal)
                    (constantI S_ 32 0#32)))))
            pads_S2000000x64_S2015232x64_0152320_000 h_S_))
        shapeCasts_S2015232x64_S15744x128x64 i)
    = tiledRows Q := rfl

end Cert.KernelIdeal.Entry

end
-- ==== Proof.KernelOperand0.lean ====
/-
  The region's first operand as the region finds it: the host program's source rows (`srcRows`), padded with
  15,232 rows of the padding value and reshaped to [15744, 128, 64].

  The host operations before the region are a straight line, so the array's contents are the operations' composed term of
  the arguments.  That term is compared with the reference's stages piece by piece, innermost first; each piece, once
  identified with the reference's stage for it, is named by that stage and never opened again:
    the mean of the four item tables (`val_main_v25`);
    "the degree is positive" and the reciprocal square root of the clamped degree (`val_main_v36`, `val_main_v39`), and
    their `where` (`val_main_v40`);
    the edge normalization, the product of the two gathered reciprocal roots (`val_main_v55`);
    the three layers — the node table times the first weight (`val_main_v59`), the first propagated table
    (`val_main_v72`), the sum of the first two weighted layers (`val_main_v77`), the second propagated table
    (`val_main_v90`) — and their weighted sum (`val_main_v95`);
    the gather at the edges' source ends (`srcRows`); and last the padding and the reshape around it.
  The two programs apply the same operations in the same order, so every comparison is an identity of terms.
-/
import proofs.«127431_j31885837206039_1_alg».proof.Proof.Gen.KernelIdeal.Frame
import proofs.«127431_j31885837206039_1_alg».proof.Proof.EdgeRows
import proofs.«127431_j31885837206039_1_alg».proof.Proof.KernelCasts
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 80000000 in
/-- The region's first operand: the source rows, padded and tiled. -/
theorem operand0 (c : Dev nD) : (V m c main_v116 : S15744x128x64.Idx → EReal) = tiledRows (srcRows m c) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  -- the two pieces of the node table: the user table as launched, and the mean of the four item tables
  generalize hW : HloOp.result (StableHlo.binary main_v23 main_v24 main_v25 _ _ _ _) _ = W
  have hu : W (Proc.devRef .tc main_arg4) = m ((c.tc : Thread nD τ).loc main_arg4) := by
    rw [← hW]; after_results_simp <;> rfl
  have hi : W (Proc.devRef .tc main_v25) = Cert.ReferenceIdeal.ReadP.val_main_v25 (F := Ideal) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
    rw [← hW]; after_results_simp <;> rfl
  rw [hu, hi]
  clear hu hi hW W
  -- the degree normalization: the degree is positive
  generalize h36 : cmpf (F := Ideal) CmpFPredicate.ogt (Host.scatterAdd scatter_S120000_S2000000x1_S2000000_n_0_0_1 _ _ _) _ = X36
  have e36 : X36 = Cert.ReferenceIdeal.ReadP.val_main_v36 (F := Ideal) (m ((c.tc : Thread nD τ).loc main_arg0)) := by
    rw [← h36]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_v36]
    rfl
  rw [e36]
  clear e36 h36 X36
  -- the reciprocal square root of the clamped degree
  generalize h39 : Host.rsqrt (F := Ideal) (maximumf (Host.scatterAdd scatter_S120000_S2000000x1_S2000000_n_0_0_1 _ _ _) _) = X39
  have e39 : X39 = Cert.ReferenceIdeal.ReadP.val_main_v39 (F := Ideal) (m ((c.tc : Thread nD τ).loc main_arg0)) := by
    rw [← h39]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_v39]
    rfl
  rw [e39]
  clear e39 h39 X39
  -- their `where`
  generalize h40 : TRef.toBuf (Val := Elt Ideal) (TRef.of main_v40 _ _ _) _ = X40
  have e40 : X40 = Cert.ReferenceIdeal.ReadP.val_main_v40 (F := Ideal) (m ((c.tc : Thread nD τ).loc main_arg0)) := by
    rw [← h40]
    unfold Cert.ReferenceIdeal.ReadP.val_main_v40 Cert.ReferenceIdeal.ReadP.val_main_call0_v1
      Cert.ReferenceIdeal.ReadP.val_main_call0_v0 Cert.ReferenceIdeal.ReadP.val_main_cst_9
    exact where_eq _ _ _ _ _ _ _ _ _ _ _ _ _ _ _ _ _ _ _ _
  rw [e40]
  clear e40 h40 X40
  -- the edge normalization
  generalize h55 : mulf (F := Ideal) (Host.gather gather_S120000_S2000000x1_S2000000_n_0_n_n_0_1_1 _ _) (Host.gather gather_S120000_S2000000x1_S2000000_n_0_n_n_0_1_1 _ _) = X55
  have e55 : X55 = Cert.ReferenceIdeal.ReadP.val_main_v55 (F := Ideal) (m ((c.tc : Thread nD τ).loc main_arg0)) := by
    rw [← h55]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v55]
    rfl
  rw [e55]
  clear e55 h55 X55
  -- the node table times the first layer weight
  generalize h59 : mulf (F := Ideal) (concatenate S120000x64 0 _ _) _ = X59
  have e59 : X59 = Cert.ReferenceIdeal.ReadP.val_main_v59 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← h59]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_v59]
    rfl
  rw [e59]
  clear e59 h59 X59
  -- the first propagated table
  generalize h72 : Host.scatterAdd (F := Ideal) scatter_S120000x64_S2000000x1_S2000000x64_1_0_0_1 _ _ (mulf (Host.gather gather_S120000x64_S2000000x1_S2000000x64_1_0_n_n_0_1_164 (concatenate S120000x64 0 _ _) _) _) = X72
  have e72 : X72 = Cert.ReferenceIdeal.ReadP.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
    rw [← h72]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v72]
    rfl
  rw [e72]
  clear e72 h72 X72
  -- the first two weighted layers
  generalize h77 : addf (F := Ideal) (Cert.ReferenceIdeal.ReadP.val_main_v59 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) _ = X77
  have e77 : X77 = Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← h77]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v73,
    Cert.ReferenceIdeal.ReadP.val_main_v74, Cert.ReferenceIdeal.ReadP.val_main_v75,
    Cert.ReferenceIdeal.ReadP.val_main_v76, Cert.ReferenceIdeal.ReadP.val_main_v77]
    rfl
  rw [e77]
  clear e77 h77 X77
  -- the second propagated table
  generalize h90 : Host.scatterAdd (F := Ideal) scatter_S120000x64_S2000000x1_S2000000x64_1_0_0_1 _ _ _ = X90
  have e90 : X90 = Cert.ReferenceIdeal.ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
    rw [← h90]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v73,
    Cert.ReferenceIdeal.ReadP.val_main_v74, Cert.ReferenceIdeal.ReadP.val_main_v75,
    Cert.ReferenceIdeal.ReadP.val_main_v76, Cert.ReferenceIdeal.ReadP.val_main_c_17,
    Cert.ReferenceIdeal.ReadP.val_main_v78, Cert.ReferenceIdeal.ReadP.val_main_v79,
    Cert.ReferenceIdeal.ReadP.val_main_c_18, Cert.ReferenceIdeal.ReadP.val_main_v80,
    Cert.ReferenceIdeal.ReadP.val_main_v81, Cert.ReferenceIdeal.ReadP.val_main_v82,
    Cert.ReferenceIdeal.ReadP.val_main_v83, Cert.ReferenceIdeal.ReadP.val_main_v84,
    Cert.ReferenceIdeal.ReadP.val_main_v85, Cert.ReferenceIdeal.ReadP.val_main_v86,
    Cert.ReferenceIdeal.ReadP.val_main_v87, Cert.ReferenceIdeal.ReadP.val_main_cst_19,
    Cert.ReferenceIdeal.ReadP.val_main_v88, Cert.ReferenceIdeal.ReadP.val_main_v89,
    Cert.ReferenceIdeal.ReadP.val_main_v90]
    rfl
  rw [e90]
  clear e90 h90 X90
  -- the table of propagated embeddings
  generalize h95 : addf (F := Ideal) (Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) _ = X95
  have e95 : X95 = Cert.ReferenceIdeal.ReadP.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← h95]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v73,
    Cert.ReferenceIdeal.ReadP.val_main_v74, Cert.ReferenceIdeal.ReadP.val_main_v75,
    Cert.ReferenceIdeal.ReadP.val_main_v76, Cert.ReferenceIdeal.ReadP.val_main_c_17,
    Cert.ReferenceIdeal.ReadP.val_main_v78, Cert.ReferenceIdeal.ReadP.val_main_v79,
    Cert.ReferenceIdeal.ReadP.val_main_c_18, Cert.ReferenceIdeal.ReadP.val_main_v80,
    Cert.ReferenceIdeal.ReadP.val_main_v81, Cert.ReferenceIdeal.ReadP.val_main_v82,
    Cert.ReferenceIdeal.ReadP.val_main_v83, Cert.ReferenceIdeal.ReadP.val_main_v84,
    Cert.ReferenceIdeal.ReadP.val_main_v85, Cert.ReferenceIdeal.ReadP.val_main_v86,
    Cert.ReferenceIdeal.ReadP.val_main_v87, Cert.ReferenceIdeal.ReadP.val_main_cst_19,
    Cert.ReferenceIdeal.ReadP.val_main_v88, Cert.ReferenceIdeal.ReadP.val_main_v89,
    Cert.ReferenceIdeal.ReadP.val_main_v91, Cert.ReferenceIdeal.ReadP.val_main_v92,
    Cert.ReferenceIdeal.ReadP.val_main_v93, Cert.ReferenceIdeal.ReadP.val_main_v94,
    Cert.ReferenceIdeal.ReadP.val_main_v95]
    rfl
  rw [e95]
  clear e95 h95 X95
  -- the gather at the edges' source ends
  generalize hR : Host.gather gather_S120000x64_S2000000x1_S2000000x64_1_0_n_n_0_1_164 (Cert.ReferenceIdeal.ReadP.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) _ = R
  have eR : R = srcRows m c := by
    rw [← hR]
    unfold srcRows
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v73,
    Cert.ReferenceIdeal.ReadP.val_main_v74, Cert.ReferenceIdeal.ReadP.val_main_v75,
    Cert.ReferenceIdeal.ReadP.val_main_v76, Cert.ReferenceIdeal.ReadP.val_main_c_17,
    Cert.ReferenceIdeal.ReadP.val_main_v78, Cert.ReferenceIdeal.ReadP.val_main_v79,
    Cert.ReferenceIdeal.ReadP.val_main_c_18, Cert.ReferenceIdeal.ReadP.val_main_v80,
    Cert.ReferenceIdeal.ReadP.val_main_v81, Cert.ReferenceIdeal.ReadP.val_main_v82,
    Cert.ReferenceIdeal.ReadP.val_main_v83, Cert.ReferenceIdeal.ReadP.val_main_v84,
    Cert.ReferenceIdeal.ReadP.val_main_v85, Cert.ReferenceIdeal.ReadP.val_main_v86,
    Cert.ReferenceIdeal.ReadP.val_main_v87, Cert.ReferenceIdeal.ReadP.val_main_cst_19,
    Cert.ReferenceIdeal.ReadP.val_main_v88, Cert.ReferenceIdeal.ReadP.val_main_v89,
    Cert.ReferenceIdeal.ReadP.val_main_v91, Cert.ReferenceIdeal.ReadP.val_main_v92,
    Cert.ReferenceIdeal.ReadP.val_main_v93, Cert.ReferenceIdeal.ReadP.val_main_v94,
    Cert.ReferenceIdeal.ReadP.val_main_v96, Cert.ReferenceIdeal.ReadP.val_main_v97,
    Cert.ReferenceIdeal.ReadP.val_main_c_20, Cert.ReferenceIdeal.ReadP.val_main_v98,
    Cert.ReferenceIdeal.ReadP.val_main_v99, Cert.ReferenceIdeal.ReadP.val_main_c_21,
    Cert.ReferenceIdeal.ReadP.val_main_v100, Cert.ReferenceIdeal.ReadP.val_main_v101,
    Cert.ReferenceIdeal.ReadP.val_main_v102, Cert.ReferenceIdeal.ReadP.val_main_v103,
    Cert.ReferenceIdeal.ReadP.val_main_v104]
    rfl
  rw [eR]
  clear eR hR R
  -- the padding and the reshape around it
  exact tiled0_eq _ _ _ _ _ _ _ _ _ _ _ _ _

end Cert.KernelIdeal.Entry

end
-- ==== Proof.KernelOperand1.lean ====
/-
  The region's second operand as the region finds it: the host program's destination rows (`dstRows`), padded with
  15,232 rows of the padding value and reshaped to [15744, 128, 64].

  The host operations before the region are a straight line, so the array's contents are the operations' composed term of
  the arguments.  That term is compared with the reference's stages piece by piece, innermost first; each piece, once
  identified with the reference's stage for it, is named by that stage and never opened again:
    the mean of the four item tables (`val_main_v25`);
    "the degree is positive" and the reciprocal square root of the clamped degree (`val_main_v36`, `val_main_v39`), and
    their `where` (`val_main_v40`);
    the edge normalization, the product of the two gathered reciprocal roots (`val_main_v55`);
    the three layers — the node table times the first weight (`val_main_v59`), the first propagated table
    (`val_main_v72`), the sum of the first two weighted layers (`val_main_v77`), the second propagated table
    (`val_main_v90`) — and their weighted sum (`val_main_v95`);
    the gather at the edges' destination ends (`dstRows`); and last the padding and the reshape around it.
  The two programs apply the same operations in the same order, so every comparison is an identity of terms.
-/
import proofs.«127431_j31885837206039_1_alg».proof.Proof.Gen.KernelIdeal.Frame
import proofs.«127431_j31885837206039_1_alg».proof.Proof.EdgeRows
import proofs.«127431_j31885837206039_1_alg».proof.Proof.KernelCasts
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 16384 in
set_option maxHeartbeats 80000000 in
/-- The region's second operand: the destination rows, padded and tiled. -/
theorem operand1 (c : Dev nD) : (V m c main_v117 : S15744x128x64.Idx → EReal) = tiledRows (dstRows m c) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  -- the two pieces of the node table: the user table as launched, and the mean of the four item tables
  generalize hW : HloOp.result (StableHlo.binary main_v23 main_v24 main_v25 _ _ _ _) _ = W
  have hu : W (Proc.devRef .tc main_arg4) = m ((c.tc : Thread nD τ).loc main_arg4) := by
    rw [← hW]; after_results_simp <;> rfl
  have hi : W (Proc.devRef .tc main_v25) = Cert.ReferenceIdeal.ReadP.val_main_v25 (F := Ideal) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
    rw [← hW]; after_results_simp <;> rfl
  rw [hu, hi]
  clear hu hi hW W
  -- the degree normalization: the degree is positive
  generalize h36 : cmpf (F := Ideal) CmpFPredicate.ogt (Host.scatterAdd scatter_S120000_S2000000x1_S2000000_n_0_0_1 _ _ _) _ = X36
  have e36 : X36 = Cert.ReferenceIdeal.ReadP.val_main_v36 (F := Ideal) (m ((c.tc : Thread nD τ).loc main_arg0)) := by
    rw [← h36]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_v36]
    rfl
  rw [e36]
  clear e36 h36 X36
  -- the reciprocal square root of the clamped degree
  generalize h39 : Host.rsqrt (F := Ideal) (maximumf (Host.scatterAdd scatter_S120000_S2000000x1_S2000000_n_0_0_1 _ _ _) _) = X39
  have e39 : X39 = Cert.ReferenceIdeal.ReadP.val_main_v39 (F := Ideal) (m ((c.tc : Thread nD τ).loc main_arg0)) := by
    rw [← h39]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_v39]
    rfl
  rw [e39]
  clear e39 h39 X39
  -- their `where`
  generalize h40 : TRef.toBuf (Val := Elt Ideal) (TRef.of main_v40 _ _ _) _ = X40
  have e40 : X40 = Cert.ReferenceIdeal.ReadP.val_main_v40 (F := Ideal) (m ((c.tc : Thread nD τ).loc main_arg0)) := by
    rw [← h40]
    unfold Cert.ReferenceIdeal.ReadP.val_main_v40 Cert.ReferenceIdeal.ReadP.val_main_call0_v1
      Cert.ReferenceIdeal.ReadP.val_main_call0_v0 Cert.ReferenceIdeal.ReadP.val_main_cst_9
    exact where_eq _ _ _ _ _ _ _ _ _ _ _ _ _ _ _ _ _ _ _ _
  rw [e40]
  clear e40 h40 X40
  -- the edge normalization
  generalize h55 : mulf (F := Ideal) (Host.gather gather_S120000_S2000000x1_S2000000_n_0_n_n_0_1_1 _ _) (Host.gather gather_S120000_S2000000x1_S2000000_n_0_n_n_0_1_1 _ _) = X55
  have e55 : X55 = Cert.ReferenceIdeal.ReadP.val_main_v55 (F := Ideal) (m ((c.tc : Thread nD τ).loc main_arg0)) := by
    rw [← h55]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v55]
    rfl
  rw [e55]
  clear e55 h55 X55
  -- the node table times the first layer weight
  generalize h59 : mulf (F := Ideal) (concatenate S120000x64 0 _ _) _ = X59
  have e59 : X59 = Cert.ReferenceIdeal.ReadP.val_main_v59 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← h59]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_v59]
    rfl
  rw [e59]
  clear e59 h59 X59
  -- the first propagated table
  generalize h72 : Host.scatterAdd (F := Ideal) scatter_S120000x64_S2000000x1_S2000000x64_1_0_0_1 _ _ (mulf (Host.gather gather_S120000x64_S2000000x1_S2000000x64_1_0_n_n_0_1_164 (concatenate S120000x64 0 _ _) _) _) = X72
  have e72 : X72 = Cert.ReferenceIdeal.ReadP.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
    rw [← h72]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v72]
    rfl
  rw [e72]
  clear e72 h72 X72
  -- the first two weighted layers
  generalize h77 : addf (F := Ideal) (Cert.ReferenceIdeal.ReadP.val_main_v59 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) _ = X77
  have e77 : X77 = Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← h77]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v73,
    Cert.ReferenceIdeal.ReadP.val_main_v74, Cert.ReferenceIdeal.ReadP.val_main_v75,
    Cert.ReferenceIdeal.ReadP.val_main_v76, Cert.ReferenceIdeal.ReadP.val_main_v77]
    rfl
  rw [e77]
  clear e77 h77 X77
  -- the second propagated table
  generalize h90 : Host.scatterAdd (F := Ideal) scatter_S120000x64_S2000000x1_S2000000x64_1_0_0_1 _ _ _ = X90
  have e90 : X90 = Cert.ReferenceIdeal.ReadP.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
    rw [← h90]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v73,
    Cert.ReferenceIdeal.ReadP.val_main_v74, Cert.ReferenceIdeal.ReadP.val_main_v75,
    Cert.ReferenceIdeal.ReadP.val_main_v76, Cert.ReferenceIdeal.ReadP.val_main_c_17,
    Cert.ReferenceIdeal.ReadP.val_main_v78, Cert.ReferenceIdeal.ReadP.val_main_v79,
    Cert.ReferenceIdeal.ReadP.val_main_c_18, Cert.ReferenceIdeal.ReadP.val_main_v80,
    Cert.ReferenceIdeal.ReadP.val_main_v81, Cert.ReferenceIdeal.ReadP.val_main_v82,
    Cert.ReferenceIdeal.ReadP.val_main_v83, Cert.ReferenceIdeal.ReadP.val_main_v84,
    Cert.ReferenceIdeal.ReadP.val_main_v85, Cert.ReferenceIdeal.ReadP.val_main_v86,
    Cert.ReferenceIdeal.ReadP.val_main_v87, Cert.ReferenceIdeal.ReadP.val_main_cst_19,
    Cert.ReferenceIdeal.ReadP.val_main_v88, Cert.ReferenceIdeal.ReadP.val_main_v89,
    Cert.ReferenceIdeal.ReadP.val_main_v90]
    rfl
  rw [e90]
  clear e90 h90 X90
  -- the table of propagated embeddings
  generalize h95 : addf (F := Ideal) (Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) _ = X95
  have e95 : X95 = Cert.ReferenceIdeal.ReadP.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
    rw [← h95]
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v73,
    Cert.ReferenceIdeal.ReadP.val_main_v74, Cert.ReferenceIdeal.ReadP.val_main_v75,
    Cert.ReferenceIdeal.ReadP.val_main_v76, Cert.ReferenceIdeal.ReadP.val_main_c_17,
    Cert.ReferenceIdeal.ReadP.val_main_v78, Cert.ReferenceIdeal.ReadP.val_main_v79,
    Cert.ReferenceIdeal.ReadP.val_main_c_18, Cert.ReferenceIdeal.ReadP.val_main_v80,
    Cert.ReferenceIdeal.ReadP.val_main_v81, Cert.ReferenceIdeal.ReadP.val_main_v82,
    Cert.ReferenceIdeal.ReadP.val_main_v83, Cert.ReferenceIdeal.ReadP.val_main_v84,
    Cert.ReferenceIdeal.ReadP.val_main_v85, Cert.ReferenceIdeal.ReadP.val_main_v86,
    Cert.ReferenceIdeal.ReadP.val_main_v87, Cert.ReferenceIdeal.ReadP.val_main_cst_19,
    Cert.ReferenceIdeal.ReadP.val_main_v88, Cert.ReferenceIdeal.ReadP.val_main_v89,
    Cert.ReferenceIdeal.ReadP.val_main_v91, Cert.ReferenceIdeal.ReadP.val_main_v92,
    Cert.ReferenceIdeal.ReadP.val_main_v93, Cert.ReferenceIdeal.ReadP.val_main_v94,
    Cert.ReferenceIdeal.ReadP.val_main_v95]
    rfl
  rw [e95]
  clear e95 h95 X95
  -- the gather at the edges' destination ends
  generalize hR : Host.gather gather_S120000x64_S2000000x1_S2000000x64_1_0_n_n_0_1_164 (Cert.ReferenceIdeal.ReadP.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) _ = R
  have eR : R = dstRows m c := by
    rw [← hR]
    unfold dstRows
    simp only [
    Cert.ReferenceIdeal.ReadP.val_main_c, Cert.ReferenceIdeal.ReadP.val_main_v0,
    Cert.ReferenceIdeal.ReadP.val_main_v1, Cert.ReferenceIdeal.ReadP.val_main_c_0,
    Cert.ReferenceIdeal.ReadP.val_main_v2, Cert.ReferenceIdeal.ReadP.val_main_v3,
    Cert.ReferenceIdeal.ReadP.val_main_v4, Cert.ReferenceIdeal.ReadP.val_main_v5,
    Cert.ReferenceIdeal.ReadP.val_main_v6, Cert.ReferenceIdeal.ReadP.val_main_v7,
    Cert.ReferenceIdeal.ReadP.val_main_c_1, Cert.ReferenceIdeal.ReadP.val_main_v8,
    Cert.ReferenceIdeal.ReadP.val_main_v9, Cert.ReferenceIdeal.ReadP.val_main_c_2,
    Cert.ReferenceIdeal.ReadP.val_main_v10, Cert.ReferenceIdeal.ReadP.val_main_v11,
    Cert.ReferenceIdeal.ReadP.val_main_v12, Cert.ReferenceIdeal.ReadP.val_main_v13,
    Cert.ReferenceIdeal.ReadP.val_main_v14, Cert.ReferenceIdeal.ReadP.val_main_v15,
    Cert.ReferenceIdeal.ReadP.val_main_c_3, Cert.ReferenceIdeal.ReadP.val_main_v16,
    Cert.ReferenceIdeal.ReadP.val_main_v17, Cert.ReferenceIdeal.ReadP.val_main_c_4,
    Cert.ReferenceIdeal.ReadP.val_main_v18, Cert.ReferenceIdeal.ReadP.val_main_v19,
    Cert.ReferenceIdeal.ReadP.val_main_v20, Cert.ReferenceIdeal.ReadP.val_main_v21,
    Cert.ReferenceIdeal.ReadP.val_main_v22, Cert.ReferenceIdeal.ReadP.val_main_v23,
    Cert.ReferenceIdeal.ReadP.val_main_cst, Cert.ReferenceIdeal.ReadP.val_main_v24,
    Cert.ReferenceIdeal.ReadP.val_main_v26, Cert.ReferenceIdeal.ReadP.val_main_v27,
    Cert.ReferenceIdeal.ReadP.val_main_v28, Cert.ReferenceIdeal.ReadP.val_main_v29,
    Cert.ReferenceIdeal.ReadP.val_main_v30, Cert.ReferenceIdeal.ReadP.val_main_cst_5,
    Cert.ReferenceIdeal.ReadP.val_main_v31, Cert.ReferenceIdeal.ReadP.val_main_cst_6,
    Cert.ReferenceIdeal.ReadP.val_main_v32, Cert.ReferenceIdeal.ReadP.val_main_v33,
    Cert.ReferenceIdeal.ReadP.val_main_v34, Cert.ReferenceIdeal.ReadP.val_main_cst_7,
    Cert.ReferenceIdeal.ReadP.val_main_v35, Cert.ReferenceIdeal.ReadP.val_main_cst_8,
    Cert.ReferenceIdeal.ReadP.val_main_v37, Cert.ReferenceIdeal.ReadP.val_main_v38,
    Cert.ReferenceIdeal.ReadP.val_main_cst_9, Cert.ReferenceIdeal.ReadP.val_main_call0_v0,
    Cert.ReferenceIdeal.ReadP.val_main_call0_v1, Cert.ReferenceIdeal.ReadP.val_main_c_10,
    Cert.ReferenceIdeal.ReadP.val_main_v41, Cert.ReferenceIdeal.ReadP.val_main_v42,
    Cert.ReferenceIdeal.ReadP.val_main_c_11, Cert.ReferenceIdeal.ReadP.val_main_v43,
    Cert.ReferenceIdeal.ReadP.val_main_v44, Cert.ReferenceIdeal.ReadP.val_main_v45,
    Cert.ReferenceIdeal.ReadP.val_main_v46, Cert.ReferenceIdeal.ReadP.val_main_v47,
    Cert.ReferenceIdeal.ReadP.val_main_c_12, Cert.ReferenceIdeal.ReadP.val_main_v48,
    Cert.ReferenceIdeal.ReadP.val_main_v49, Cert.ReferenceIdeal.ReadP.val_main_c_13,
    Cert.ReferenceIdeal.ReadP.val_main_v50, Cert.ReferenceIdeal.ReadP.val_main_v51,
    Cert.ReferenceIdeal.ReadP.val_main_v52, Cert.ReferenceIdeal.ReadP.val_main_v53,
    Cert.ReferenceIdeal.ReadP.val_main_v54, Cert.ReferenceIdeal.ReadP.val_main_v56,
    Cert.ReferenceIdeal.ReadP.val_main_v57, Cert.ReferenceIdeal.ReadP.val_main_v58,
    Cert.ReferenceIdeal.ReadP.val_main_c_14, Cert.ReferenceIdeal.ReadP.val_main_v60,
    Cert.ReferenceIdeal.ReadP.val_main_v61, Cert.ReferenceIdeal.ReadP.val_main_c_15,
    Cert.ReferenceIdeal.ReadP.val_main_v62, Cert.ReferenceIdeal.ReadP.val_main_v63,
    Cert.ReferenceIdeal.ReadP.val_main_v64, Cert.ReferenceIdeal.ReadP.val_main_v65,
    Cert.ReferenceIdeal.ReadP.val_main_v66, Cert.ReferenceIdeal.ReadP.val_main_v67,
    Cert.ReferenceIdeal.ReadP.val_main_v68, Cert.ReferenceIdeal.ReadP.val_main_v69,
    Cert.ReferenceIdeal.ReadP.val_main_cst_16, Cert.ReferenceIdeal.ReadP.val_main_v70,
    Cert.ReferenceIdeal.ReadP.val_main_v71, Cert.ReferenceIdeal.ReadP.val_main_v73,
    Cert.ReferenceIdeal.ReadP.val_main_v74, Cert.ReferenceIdeal.ReadP.val_main_v75,
    Cert.ReferenceIdeal.ReadP.val_main_v76, Cert.ReferenceIdeal.ReadP.val_main_c_17,
    Cert.ReferenceIdeal.ReadP.val_main_v78, Cert.ReferenceIdeal.ReadP.val_main_v79,
    Cert.ReferenceIdeal.ReadP.val_main_c_18, Cert.ReferenceIdeal.ReadP.val_main_v80,
    Cert.ReferenceIdeal.ReadP.val_main_v81, Cert.ReferenceIdeal.ReadP.val_main_v82,
    Cert.ReferenceIdeal.ReadP.val_main_v83, Cert.ReferenceIdeal.ReadP.val_main_v84,
    Cert.ReferenceIdeal.ReadP.val_main_v85, Cert.ReferenceIdeal.ReadP.val_main_v86,
    Cert.ReferenceIdeal.ReadP.val_main_v87, Cert.ReferenceIdeal.ReadP.val_main_cst_19,
    Cert.ReferenceIdeal.ReadP.val_main_v88, Cert.ReferenceIdeal.ReadP.val_main_v89,
    Cert.ReferenceIdeal.ReadP.val_main_v91, Cert.ReferenceIdeal.ReadP.val_main_v92,
    Cert.ReferenceIdeal.ReadP.val_main_v93, Cert.ReferenceIdeal.ReadP.val_main_v94,
    Cert.ReferenceIdeal.ReadP.val_main_v96, Cert.ReferenceIdeal.ReadP.val_main_v97,
    Cert.ReferenceIdeal.ReadP.val_main_c_20, Cert.ReferenceIdeal.ReadP.val_main_v98,
    Cert.ReferenceIdeal.ReadP.val_main_v99, Cert.ReferenceIdeal.ReadP.val_main_c_21,
    Cert.ReferenceIdeal.ReadP.val_main_v100, Cert.ReferenceIdeal.ReadP.val_main_v101,
    Cert.ReferenceIdeal.ReadP.val_main_v102, Cert.ReferenceIdeal.ReadP.val_main_v103,
    Cert.ReferenceIdeal.ReadP.val_main_v104, Cert.ReferenceIdeal.ReadP.val_main_v105,
    Cert.ReferenceIdeal.ReadP.val_main_v106, Cert.ReferenceIdeal.ReadP.val_main_c_22,
    Cert.ReferenceIdeal.ReadP.val_main_v107, Cert.ReferenceIdeal.ReadP.val_main_v108,
    Cert.ReferenceIdeal.ReadP.val_main_c_23, Cert.ReferenceIdeal.ReadP.val_main_v109,
    Cert.ReferenceIdeal.ReadP.val_main_v110, Cert.ReferenceIdeal.ReadP.val_main_v111,
    Cert.ReferenceIdeal.ReadP.val_main_v112, Cert.ReferenceIdeal.ReadP.val_main_v113]
    rfl
  rw [eR]
  clear eR hR R
  -- the padding and the reshape around it
  exact tiled1_eq _ _ _ _ _ _ _ _ _ _ _ _ _

end Cert.KernelIdeal.Entry

end
-- ==== Proof.KernelRun.lean ====
/-
  The kernel's whole run, read back: its result is the edge score of the two matrices of edge rows.

  After the region the host program reads the [15744, 128] result array as one vector of 2,015,232 entries and keeps the
  first 2,000,000.  The region's array is `tileDot` of the two operand arrays (Proof/KernelTiles.lean), the operand arrays
  are the padded, tiled edge rows (Proof/KernelCasts.lean, Proof/KernelOperand0.lean, Proof/KernelOperand1.lean), and that detour is the edge
  score (Proof/EdgeDot.lean).
-/
import proofs.«127431_j31885837206039_1_alg».proof.Proof.KernelTiles
import proofs.«127431_j31885837206039_1_alg».proof.Proof.KernelOperand0
import proofs.«127431_j31885837206039_1_alg».proof.Proof.KernelOperand1
import Idealize.ShloMosaic.Lib.StableHlo.Run

noncomputable section

namespace Cert.KernelIdeal.Scores

open Cert.KernelIdeal Cert.KernelIdeal.Gen Idealize.ShloMosaic Idealize.ShloMosaic.TcCoe Idealize.SL.Sem
open Idealize.ShloMosaic.StableHlo Cert.KernelIdeal.Entry

variable (m : (ℓ : Loc nD τ sig) → Buf (Elt Ideal) ℓ) (ρ : Dev nD → PrngReg)

/-- The region's result array, as the host lines after the region find it. -/
theorem region_array (c : Dev nD) :
    Pipeline.withArrays (cfgs 0).spec c (V0 m c) (fun w => (dats m 0 c).arrAt w (cfgs 0).N) (Proc.devRef .tc main_v118)
      = Cert.EdgeDot.tileDot (V m c main_v116) (V m c main_v117) :=
  (Pipeline.withArrays_arr spec0 launch0.win.arr_inj c _ _ 2).trans (TileValue.final m c)

/-- The program's result after the host lines that follow the region: the edge score of the edge rows. -/
theorem result_eq (c : Dev nD) :
    Pipeline.afterTail₀ cfgs (dats m) 0 (V0 m) [hostOps1] c main_v120
      = Cert.EdgeDot.edgeDot (srcRows m c) (dstRows m c) := by
  unfold Pipeline.afterTail₀
  show StableHlo.after hostOps1 _ (Proc.devRef .tc main_v120) = _
  after_results
  show extractStridedSlice S2000000 ![0]
      (shapeCast S2015232
        (Pipeline.withArrays (cfgs 0).spec c (V0 m c) (fun w => (dats m 0 c).arrAt w (cfgs 0).N) (Proc.devRef .tc main_v118))
        shapeCasts_S15744x128_S2015232) slices_S2015232_S2000000_0 = _
  rw [region_array m c, operand0 m c, operand1 m c]
  exact Cert.EdgeDot.tiled_eq_edgeDot (srcRows m c) (dstRows m c) padValue _ _ _ _ _

/-- Every weakly fair execution of the kernel's program terminates with its result at the edge score of the edge rows
    and its arguments unchanged. -/
theorem run : θ_run defs (onTc (τ := τ) (main (F := Ideal))) ⟨m, fun _ => 0, ρ⟩ fun r => ∀ c : Dev nD,
      r.2.mem ((c.tc : Thread nD τ).loc main_v120) = Cert.EdgeDot.edgeDot (srcRows m c) (dstRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v120 (Pipeline.mem_restRefs_of main_v120 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Scores

end
-- ==== Proof.ReferenceScores.lean ====
/-
  The reference's result is the edge score of its own two matrices of edge rows: its last two operations multiply the
  source rows by the destination rows entry by entry and sum each row's 64 products onto the initial value zero.
-/
import proofs.«127431_j31885837206039_1_alg».proof.Proof.RefRead
import proofs.«127431_j31885837206039_1_alg».proof.Proof.EdgeDot

noncomputable section

open scoped BigOperators

namespace Cert.ReferenceIdeal.Scores

open Cert.ReferenceIdeal Cert.ReferenceIdeal.Gen Cert.ReferenceIdeal.ReadP Idealize.ShloMosaic Idealize.ShloMosaic.ValueIdx

/-- The reference's last stage, index by index: at edge e, zero plus the sum over d of source(e, d) · destination(e, d). -/
theorem result_eq (x0 : (⟨S2x2000000, .i32⟩ : BufTy).Contents (Elt Ideal)) (x1 x2 x3 : (⟨S20000, .i32⟩ : BufTy).Contents (Elt Ideal))
    (x4 : (⟨S100000x64, .f32⟩ : BufTy).Contents (Elt Ideal)) (x5 : (⟨S20000x64, .f32⟩ : BufTy).Contents (Elt Ideal))
    (x6 : (⟨S912x64, .f32⟩ : BufTy).Contents (Elt Ideal)) (x7 : (⟨S1537x64, .f32⟩ : BufTy).Contents (Elt Ideal))
    (x8 : (⟨S9x64, .f32⟩ : BufTy).Contents (Elt Ideal)) (x9 : (⟨S3, .f32⟩ : BufTy).Contents (Elt Ideal)) :
    val_main_v115 (F := Ideal) x0 x1 x2 x3 x4 x5 x6 x7 x8 x9
      = Cert.EdgeDot.edgeDot (val_main_v104 (F := Ideal) x0 x1 x2 x3 x4 x5 x6 x7 x8 x9) (val_main_v113 (F := Ideal) x0 x1 x2 x3 x4 x5 x6 x7 x8 x9) := by
  funext i
  obtain ⟨e, rfl⟩ : ∃ e : Fin 2000000, i = ix1 e := ⟨i 0, eq_ix1 i⟩
  rw [val_main_v115_apply]
  unfold Cert.EdgeDot.edgeDot
  have hz : val_main_cst_24 (F := Ideal) (Shape.Idx.first h_S_) = 0 := Ideal.ofBits_zero_f32
  rw [hz, zero_add]
  refine Finset.sum_congr rfl fun d _ => ?_
  have hi : idx_main_v115 (ix1 e) d = ix2 e d :=
    funext fun a => Fin.ext (by match a with | ⟨0, _⟩ => rfl | ⟨1, _⟩ => rfl)
  rw [hi, val_main_v114_apply]
  rfl

end Cert.ReferenceIdeal.Scores

end
-- ==== Proof.lean ====
/-
  Edge scores of a graph embedding: for each of 2,000,000 edges, the inner product of the propagated embeddings (64 numbers
  each) of the edge's two end nodes.

  Both programs compute the node embeddings by the same host operations — a mean of four gathered tables for the items,
  two rounds of degree-normalized neighbourhood sums, a weighted sum of the three layers — and gather one row per edge
  at each end.  They differ only in the last step.  The reference multiplies the two [2000000, 64] matrices of rows entry
  by entry and sums every row.  The kernel pads both matrices to 2,015,232 rows, tiles them as [15744, 128, 64], lets a
  pipelined region over 123 blocks of 128 groups form the same row sums, flattens the [15744, 128] result and keeps the
  first 2,000,000 entries.  On the extended reals the two are one function of the two row matrices
  (Proof/EdgeDot.lean): entry e of the kernel's result is the row sum of padded row e, which is row e itself.  No
  algebraic law is needed, so the precondition (finite inputs) is never opened.

  The modules: Proof/EdgeDot.lean (the edge score and the detour through tiles), Proof/KernelTiles.lean (what the region
  leaves in its result array), Proof/EdgeRows.lean, Proof/KernelCasts.lean and Proof/KernelOperand0/1.lean (the operand arrays as the region
  finds them), Proof/KernelRun.lean (the kernel's run read back), Proof/RefRun.lean and Proof/RefRead.lean (the reference's run
  and its stages), Proof/ReferenceScores.lean (the reference's last stage is the edge score).  The three frames are the
  generated frame certificates and the reference's run with its result dropped; the idealization rewrote nothing.
-/
import proofs.«127431_j31885837206039_1_alg».proof.Defs
import proofs.«127431_j31885837206039_1_alg».proof.Proof.Gen.Kernel
import proofs.«127431_j31885837206039_1_alg».proof.Proof.Gen.Kernel.Skeleton
import proofs.«127431_j31885837206039_1_alg».proof.Proof.Gen.Kernel.Launch
import proofs.«127431_j31885837206039_1_alg».proof.Proof.Gen.Kernel.Points
import proofs.«127431_j31885837206039_1_alg».proof.Proof.Gen.Kernel.Frame
import proofs.«127431_j31885837206039_1_alg».proof.Proof.Gen.KernelIdeal
import proofs.«127431_j31885837206039_1_alg».proof.Proof.Gen.KernelIdeal.Skeleton
import proofs.«127431_j31885837206039_1_alg».proof.Proof.Gen.KernelIdeal.Launch
import proofs.«127431_j31885837206039_1_alg».proof.Proof.Gen.KernelIdeal.Points
import proofs.«127431_j31885837206039_1_alg».proof.Proof.Gen.KernelIdeal.Frame
import proofs.«127431_j31885837206039_1_alg».proof.Proof.Gen.ReferenceIdeal
import proofs.«127431_j31885837206039_1_alg».proof.Proof.Gen.Pre_finite_inputs
import proofs.«127431_j31885837206039_1_alg».proof.Proof.KernelRun
import proofs.«127431_j31885837206039_1_alg».proof.Proof.ReferenceScores
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame certificate. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- From memories that agree on the ten arguments both programs end with the edge score of the same two matrices of
    edge rows: the kernel by its run read back, the reference by its last stage. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.EdgeDot.edgeDot (Cert.KernelIdeal.Entry.srcRows m c) (Cert.KernelIdeal.Entry.dstRows m c),
    Cert.KernelIdeal.Scores.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v115_eq, Cert.ReferenceIdeal.Scores.result_eq, h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
